-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S2x1x128 : Shape := ⟨3, ![2, 1, 128]⟩
abbrev S16384x128 : Shape := ⟨2, ![16384, 128]⟩
abbrev S1x1x128 : Shape := ⟨3, ![1, 1, 128]⟩
abbrev S8x128 : Shape := ⟨2, ![8, 128]⟩
abbrev S2048x8x128 : Shape := ⟨3, ![2048, 8, 128]⟩
abbrev S128 : Shape := ⟨1, ![128]⟩
abbrev S1x128 : Shape := ⟨2, ![1, 128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S2x1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S1x1x128, .f32⟩
  | .local _ .vmem, ⟨5, _⟩ => ⟨S1x1x128, .f32⟩
  | .local _ .vmem, ⟨6, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S2048x8x128 : S16384x128.ShapeCasts S2048x8x128
  reduces_S2048x8x128_S8x128 : S2048x8x128.Reduces [0] S8x128
  reduces_S8x128_S128 : S8x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .f32 = 32 ∨ (Rect.block (s := S262144x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S33554432, .f32⟩
  | .hbm, ⟨15, _⟩ => ⟨S33554432, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.LibSums.lean ====
/-
  Finite sums over index sets, re-indexed: general lemmas over any additive commutative monoid, with no program in them.

    sum_idx1, sum_idx3   a sum over the indices of a rank-1 / rank-3 shape is the (iterated) sum over the coordinates
                         (the rank-2 case is the library's `ValueIdx.sum_idx2`);
    sum_fin_mul          a sum over `a * b` consecutive naturals is the double sum over quotient i < a and remainder
                         j < b, at position i * b + j — the step that splits a flat index into (row, column), applied
                         repeatedly for a tiling of any depth;
    sum_fin_cast         the same sum under another spelling of its length (so a literal extent can be written as the
                         product it is, by `norm_num`, without evaluating anything of that size);
    sum_reorder          four nested sums a, b, c, d taken in the order d, c, a, b.

  None of them needs the summands finite: only commutativity and associativity of addition are used.
-/
import Idealize.ShloMosaic.PureOps.Ideal
import Idealize.ShloMosaic.Lib.ValueIdx

noncomputable section

open scoped BigOperators

namespace Idealize.ShloMosaic.ValueSums

open Idealize.ShloMosaic Idealize.ShloMosaic.ValueIdx

/-! ## Sums over index sets of rank 1 and 3 as sums over coordinates -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Regrouping a sum over a range that is a product -/

/-- A sum over `a * b` consecutive naturals is the double sum over quotient and remainder. -/
theorem sum_fin_mul {M : Type*} [AddCommMonoid M] (a b : ℕ) (f : ℕ → M) :
    ∑ k : Fin (a * b), f k.val = ∑ i : Fin a, ∑ j : Fin b, f (i.val * b + j.val) := by
  rw [← (finProdFinEquiv (m := a) (n := b)).sum_comp, Fintype.sum_prod_type]
  refine Finset.sum_congr rfl fun i _ => Finset.sum_congr rfl fun j _ => ?_
  refine congrArg f ?_
  rw [finProdFinEquiv_apply_val]
  ring

/-- The same range under another spelling of its length. -/
theorem sum_fin_cast {M : Type*} [AddCommMonoid M] {n n' : ℕ} (h : n = n') (f : ℕ → M) :
    ∑ k : Fin n, f k.val = ∑ k : Fin n', f k.val := by
  subst h; rfl

/-- Four nested sums in another order. -/
theorem sum_reorder {M : Type*} [AddCommMonoid M] {A B C D : Type*} [Fintype A] [Fintype B] [Fintype C] [Fintype D]
    (F : A → B → C → D → M) :
    ∑ a, ∑ b, ∑ c, ∑ d, F a b c d = ∑ d, ∑ c, ∑ a, ∑ b, F a b c d := by
  calc ∑ a, ∑ b, ∑ c, ∑ d, F a b c d
      = ∑ a, ∑ c, ∑ b, ∑ d, F a b c d := Finset.sum_congr rfl fun a _ => Finset.sum_comm
    _ = ∑ c, ∑ a, ∑ b, ∑ d, F a b c d := Finset.sum_comm
    _ = ∑ c, ∑ a, ∑ d, ∑ b, F a b c d :=
        Finset.sum_congr rfl fun c _ => Finset.sum_congr rfl fun a _ => Finset.sum_comm
    _ = ∑ c, ∑ d, ∑ a, ∑ b, F a b c d := Finset.sum_congr rfl fun c _ => Finset.sum_comm
    _ = ∑ d, ∑ c, ∑ a, ∑ b, F a b c d := Finset.sum_comm

end Idealize.ShloMosaic.ValueSums

end
-- ==== Proof.Spec.lean ====
/-
  The quantity both programs compute, and the one law that joins them.

  For sample pairs (a i, b i), i < 2^25, both programs form the log-density
      term (a i) (b i) = (-1/2) * (0.4 - ((a i + b i) + 3))^2 - (1/2) log (2 pi)
  (every constant kept as the float word both programs print), add the 2^25 terms up and divide by 2^25.
  The reference adds them in one sum over the flat index.  The kernel adds them grouped: the flat index is
      pos c j g s l = ((c * 8 + j) * 16384 + (g * 8 + s)) * 128 + l
  (core c < 2, step j < 8, row group g < 2048, sublane s < 8, lane l < 128), and it sums over g, then j, then s,
  then (c, l).  Addition on the extended reals is commutative and associative, so the two sums agree
  (`sum_regroup`); no finiteness of the inputs is used.
-/
import proofs.«136038_j87522843558820_2_alg».proof.Proof.LibSums
import Idealize.ShloMosaic.PureOps.Ideal
import Idealize.ShloMosaic.Lib.ValueIdx

noncomputable section

open scoped BigOperators

namespace Cert.LogLik

open Idealize.ShloMosaic Idealize.ShloMosaic.ValueIdx Idealize.ShloMosaic.ValueSums

/-- The log-density of one sample pair, on the extended reals. -/
def term (a b : EReal) : EReal :=
  Ideal.ofBits .f32 0xBF000000#32 *
      ((Ideal.ofBits .f32 0x3ECCCCCD#32 - ((a + b) + Ideal.ofBits .f32 0x40400000#32)) *
       (Ideal.ofBits .f32 0x3ECCCCCD#32 - ((a + b) + Ideal.ofBits .f32 0x40400000#32)))
    - Ideal.ofBits .f32 0x3F6B3F8E#32

/-- A flat array read at a natural position (0 past its end, which no sum below reaches). -/
def entry (a : (⟨1, ![33554432]⟩ : Shape).Idx → EReal) (k : ℕ) : EReal :=
  if h : k < 33554432 then a (ix1 ⟨k, h⟩) else 0

theorem entry_val (a : (⟨1, ![33554432]⟩ : Shape).Idx → EReal) (i : Fin 33554432) : entry a i.val = a (ix1 i) := by
  unfold entry; rw [dif_pos i.isLt]

theorem entry_of_lt (a : (⟨1, ![33554432]⟩ : Shape).Idx → EReal) (k : ℕ) (h : k < 33554432) :
    entry a k = a (ix1 ⟨k, h⟩) := by
  unfold entry; rw [dif_pos h]

/-- The log-density of the sample pair at flat position `k`. -/
def sample (a b : (⟨1, ![33554432]⟩ : Shape).Idx → EReal) (k : ℕ) : EReal := term (entry a k) (entry b k)

/-- THE RESULT both programs return: the sum of the 2^25 log-densities, started from the zero word, divided by the
    word of 2^25. -/
def mean (a b : (⟨1, ![33554432]⟩ : Shape).Idx → EReal) : (⟨0, ![]⟩ : Shape).Idx → EReal := fun _ =>
  Ideal.div (Ideal.ofBits .f32 0x00000000#32 + ∑ i : Fin 33554432, sample a b i.val) (Ideal.ofBits .f32 0x4C000000#32)

/-- Where sample (core c, step j, row group g, sublane s, lane l) sits in the flat arrays. -/
def pos (c j g s l : ℕ) : ℕ := ((c * 8 + j) * 16384 + (g * 8 + s)) * 128 + l

/-- THE LAW: the sum over the flat index is the kernel's grouped sum — over the row groups of a block, the eight
    steps of a core, the eight sublanes, and the (core, lane) pairs. -/
theorem sum_regroup {M : Type*} [AddCommMonoid M] (f : ℕ → M) :
    ∑ i : Fin 33554432, f i.val
      = ∑ c : Fin 2, ∑ l : Fin 128, ∑ s : Fin 8, ∑ j : Fin 8, ∑ g : Fin 2048, f (pos c.val j.val g.val s.val l.val) := by
  rw [sum_fin_cast (show 33554432 = 2 * (8 * 2048 * 8 * 128) by norm_num) f, sum_fin_mul 2 (8 * 2048 * 8 * 128) f]
  refine Finset.sum_congr rfl fun c _ => ?_
  rw [sum_fin_cast (show 8 * 2048 * 8 * 128 = 8 * (2048 * 8 * 128) by norm_num) (fun k => f (c.val * (8 * 2048 * 8 * 128) + k)),
    sum_fin_mul 8 (2048 * 8 * 128) (fun k => f (c.val * (8 * 2048 * 8 * 128) + k))]
  have h3 : ∀ j : Fin 8, ∑ k : Fin (2048 * 8 * 128), f (c.val * (8 * 2048 * 8 * 128) + (j.val * (2048 * 8 * 128) + k.val))
      = ∑ g : Fin 2048, ∑ s : Fin 8, ∑ l : Fin 128, f (pos c.val j.val g.val s.val l.val) := by
    intro j
    rw [sum_fin_cast (show 2048 * 8 * 128 = 2048 * (8 * 128) by norm_num)
        (fun k => f (c.val * (8 * 2048 * 8 * 128) + (j.val * (2048 * 8 * 128) + k))),
      sum_fin_mul 2048 (8 * 128) (fun k => f (c.val * (8 * 2048 * 8 * 128) + (j.val * (2048 * 8 * 128) + k)))]
    refine Finset.sum_congr rfl fun g _ => ?_
    rw [sum_fin_mul 8 128 (fun k => f (c.val * (8 * 2048 * 8 * 128) + (j.val * (2048 * 8 * 128) + (g.val * (8 * 128) + k))))]
    refine Finset.sum_congr rfl fun s _ => Finset.sum_congr rfl fun l _ => ?_
    refine congrArg f ?_
    unfold pos; omega
  rw [Finset.sum_congr rfl fun j _ => h3 j]
  exact sum_reorder fun (j : Fin 8) (g : Fin 2048) (s : Fin 8) (l : Fin 128) => f (pos c.val j.val g.val s.val l.val)

end Cert.LogLik

end
-- ==== Proof.RefValue.lean ====
/-
  The reference returns `mean`: read one operation at a time, its result at the one scalar index is the zero word plus
  the sum over the flat index of (-1/2) * (0.4 - ((a i + b i) + 3))^2 - (1/2) log (2 pi), divided by the word of 2^25 —
  the same words, the same order of operations inside a term, as `LogLik.term`.
-/
import proofs.«136038_j87522843558820_2_alg».proof.Proof.Gen.ReferenceIdeal.Read
import proofs.«136038_j87522843558820_2_alg».proof.Proof.Spec

noncomputable section

open scoped BigOperators
open Idealize.ShloMosaic Idealize.ShloMosaic.ValueIdx Idealize.ShloMosaic.ValueSums

namespace Cert.ReferenceIdeal.RefValue

open Cert.ReferenceIdeal Cert.LogLik

/-- The reference's last stage is the mean of the log-densities. -/
theorem ref_eq (x0 x1 : (⟨S33554432, .f32⟩ : BufTy).Contents (Elt Ideal)) :
    Read.val_main_v11 (F := Ideal) x0 x1 = mean x0 x1 := by
  funext i
  rw [Read.val_main_v11_apply, Read.val_main_v10_apply, sum_idx1]
  simp only [Read.val_main_v9_apply, Read.val_main_v8_apply, Read.val_main_v7_apply, Read.val_main_v6_apply,
    Read.val_main_v5_apply, Read.val_main_v4_apply, Read.val_main_v3_apply, Read.val_main_v2_apply,
    Read.val_main_v1_apply, Read.val_main_v0_apply, Read.val_main_cst_apply, Read.val_main_cst_0_apply,
    Read.val_main_cst_1_apply, Read.val_main_cst_2_apply, Read.val_main_cst_3_apply, Read.val_main_cst_4_apply,
    Ideal.ofBits_def, Ideal.hostDivf_def, Ideal.addf_def, Ideal.subf_def, Ideal.mulf_def]
  unfold mean sample term
  simp only [entry_val]

end Cert.ReferenceIdeal.RefValue

end
-- ==== Proof.Pieces.lean ====
/-
  What one step of the kernel leaves behind, as functions of what it read.

  A step reads two blocks x0, x1 of 16384 x 128 samples and the 8 x 128 accumulator, and writes the accumulator
  back; the last step of a core also writes the 1 x 1 x 128 output block.  Whatever buffers the step runs on:
    * the first step of a core leaves   acc' = update x0 x1 zero      (it clears the accumulator first),
    * every later step leaves           acc' = update x0 x1 acc,
    * the last step also leaves         out  = fold acc',
  where update is the second stored value (the accumulator plus the row-group sums of the log-densities),
  zero the first (an all-zero tile) and fold the third (the sum over the eight sublanes).  The statements hold
  for every float instance; the arithmetic inside update and fold is opened in the next module.
-/
import proofs.«136038_j87522843558820_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a rank-2 access. -/
theorem hz2 : (![0, 0] : Fin 2 → Nat) = fun _ => 0 := funext fun a => by fin_cases a <;> rfl
/-- The zero offset of a rank-3 access. -/
theorem hz3 : (![0, 0, 0] : Fin 3 → Nat) = fun _ => 0 := funext fun a => by fin_cases a <;> rfl

/-- First step of a core: the accumulator is cleared, read back as zero, and updated. -/
theorem scratch_A (c : Dev nD) (i : grid0.Coords) (a2 : Memref sig .tc .vmem S16384x128 .f32) (h2 : a2.IsWhole)
    (a3 : Memref sig .tc .vmem S16384x128 .f32) (h3 : a3.IsWhole) (a4 : Memref sig .tc .vmem S1x1x128 .f32) (h4 : a4.IsWhole)
    (a5 : Memref sig .tc .vmem S8x128 .f32) (h5 : a5.IsWhole) (hc0 : cond0_0 i) (hc1 : ¬cond0_1 i)
    (x0 x1 : Vec F S16384x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, View.ld_unit_zero (S := S16384x128) hz2]

/-- A middle step: the accumulator the step before left is updated. -/
theorem scratch_B (c : Dev nD) (i : grid0.Coords) (a2 : Memref sig .tc .vmem S16384x128 .f32) (h2 : a2.IsWhole)
    (a3 : Memref sig .tc .vmem S16384x128 .f32) (h3 : a3.IsWhole) (a4 : Memref sig .tc .vmem S1x1x128 .f32) (h4 : a4.IsWhole)
    (a5 : Memref sig .tc .vmem S8x128 .f32) (h5 : a5.IsWhole) (hc0 : ¬cond0_0 i) (hc1 : ¬cond0_1 i)
    (x0 x1 : Vec F S16384x128 .f32) (xs0 : Vec F S8x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S16384x128) hz2,
    View.ld_unit_zero (S := S8x128) hz2]

/-- The last step of a core updates the accumulator in the same way … -/
theorem scratch_C (c : Dev nD) (i : grid0.Coords) (a2 : Memref sig .tc .vmem S16384x128 .f32) (h2 : a2.IsWhole)
    (a3 : Memref sig .tc .vmem S16384x128 .f32) (h3 : a3.IsWhole) (a4 : Memref sig .tc .vmem S1x1x128 .f32) (h4 : a4.IsWhole)
    (a5 : Memref sig .tc .vmem S8x128 .f32) (h5 : a5.IsWhole) (hc0 : ¬cond0_0 i) (hc1 : cond0_1 i)
    (x0 x1 : Vec F S16384x128 .f32) (xs0 : Vec F S8x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S16384x128) hz2,
    View.ld_unit_zero (S := S8x128) hz2]

/-- … and stores the sublane sums of the updated accumulator as the core's output block. -/
theorem out_C (c : Dev nD) (i : grid0.Coords) (a2 : Memref sig .tc .vmem S16384x128 .f32) (h2 : a2.IsWhole)
    (a3 : Memref sig .tc .vmem S16384x128 .f32) (h3 : a3.IsWhole) (a4 : Memref sig .tc .vmem S1x1x128 .f32) (h4 : a4.IsWhole)
    (a5 : Memref sig .tc .vmem S8x128 .f32) (h5 : a5.IsWhole) (hc0 : ¬cond0_0 i) (hc1 : cond0_1 i)
    (x0 x1 : Vec F S16384x128 .f32) (xs0 : Vec F S8x128 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S8x128) _ hz2]
  simp only [View.readAt_eq_ld, h2.read_unread, h3.read_unread, h5.read_unread, View.ld_unit_zero (S := S16384x128) hz2,
    View.ld_unit_zero (S := S8x128) hz2]

end Cert.KernelIdeal.Pieces

end
-- ==== Proof.Payload.lean ====
/-
  The three stored values of a step, read at one entry, on the extended reals.

    zero   at (s, l)    is 0;
    update x0 x1 acc at (s, l) is  acc (s, l) + sum over the 2048 row groups g of term (x0 (8 g + s, l)) (x1 (8 g + s, l)):
           the block is viewed as 2048 groups of 8 rows and summed over the groups, which keeps sublane s and lane l;
    fold   acc at (0, 0, l) is the sum over the 8 sublanes s of acc (s, l).

  Both sums start from the zero word, which is the extended real 0.  The casts between equal shapes are the identity, and
  a cast between shapes of equal size reads the entry at the same row-major position.
-/
import proofs.«136038_j87522843558820_2_alg».proof.Proof.Gen.KernelIdeal.Skeleton
import proofs.«136038_j87522843558820_2_alg».proof.Proof.Spec
import Idealize.ShloMosaic.PureOps.Ideal.Laws
import Idealize.ShloMosaic.Lib.Pipeline.Value
import Idealize.ShloMosaic.Lib.ValueIdx

noncomputable section

open scoped BigOperators
open Idealize.ShloMosaic Idealize.ShloMosaic.ValueIdx

namespace Cert.KernelIdeal.Payload

open Cert.KernelIdeal Cert.KernelIdeal.Gen Cert.LogLik

/-- Row `8 g + s` of a block: sublane `s` of row group `g`. -/
def row (g : Fin 2048) (s : Fin 8) : Fin 16384 := ⟨g.val * 8 + s.val, by omega⟩

/-- The cleared accumulator holds 0 everywhere. -/
theorem zero_apply (s : Fin 8) (l : Fin 128) : k0_pay1 (F := Ideal) (ix2 s l) = 0 := by
  unfold k0_pay1
  rw [shapeCast_self]
  exact Ideal.ofBits_zero_f32

/-- The updated accumulator at (s, l): what it held plus the log-densities of sublane s, lane l of every row group. -/
theorem update_apply (x0 x1 : Vec Ideal S16384x128 .f32) (acc : Vec Ideal S8x128 .f32) (s : Fin 8) (l : Fin 128) :
    k0_pay2 x0 x1 acc (ix2 s l)
      = acc (ix2 s l) + ∑ g : Fin 2048, term (x0 (ix2 (row g s) l)) (x1 (ix2 (row g s) l)) := by
  unfold k0_pay2
  dsimp only
  simp only [shapeCast_self]
  show acc (ix2 s l) + _ = acc (ix2 s l) + _
  refine congrArg (acc (ix2 s l) + ·) ?_
  refine (Ideal.multiReduction_add_single _ _ _ _ _ (ix2 s l)).trans ?_
  show ∑ g : Fin 2048, _ = ∑ g : Fin 2048, _
  refine Finset.sum_congr rfl fun g _ => ?_
  refine (shapeCast_apply _ _ _ (ix2 (row g s) l) ?_).trans ?_
  · rw [Shape.rowMajor_val_two, Shape.rowMajor_val_three]
    show (g.val * 8 + s.val) * 128 + l.val = (g.val * 8 + s.val) * 128 + l.val
    rfl
  · rfl

/-- The output block at lane l: the sum of the accumulator's eight sublanes at that lane. -/
theorem fold_apply (acc : Vec Ideal S8x128 .f32) (l : Fin 128) :
    k0_pay3 acc (ix3 (0 : Fin 1) (0 : Fin 1) l) = ∑ s : Fin 8, acc (ix2 s l) := by
  unfold k0_pay3
  dsimp only
  refine (shapeCast_apply _ _ _ (ix2 (0 : Fin 1) l) ?_).trans ?_
  · rw [Shape.rowMajor_val_two, Shape.rowMajor_val_three]
    show 0 * 128 + l.val = (0 * 1 + 0) * 128 + l.val
    rfl
  refine (shapeCast_apply _ _ _ (ix1 l) ?_).trans ?_
  · rw [Shape.rowMajor_val_one, Shape.rowMajor_val_two]
    show l.val = 0 * 128 + l.val
    omega
  refine (Ideal.multiReduction_add_single _ _ _ _ _ (ix1 l)).trans ?_
  show ∑ s : Fin 8, _ = ∑ s : Fin 8, _
  refine Finset.sum_congr rfl fun s _ => ?_
  refine congrArg acc (funext fun a => ?_)
  match a with
  | ⟨0, _⟩ => rfl
  | ⟨1, _⟩ => rfl

end Cert.KernelIdeal.Payload

end
-- ==== Proof.KernelValue.lean ====
/-
  The idealized kernel returns `mean`.

  Grid point t = 8 c + j is step j of core c.  Its two input blocks are rows 16384 t … 16384 t + 16383 of the
  262144 x 128 views of the flat arguments, and entry (r, l) of such a view is flat position 128 r + l.  So the
  addend of step t at accumulator entry (s, l) is
      part t s l = sum over the 2048 row groups g of sample ((16384 t + (8 g + s)) * 128 + l).
  The accumulator after step t holds, at (s, l), the parts of the steps of its core so far (by induction on t: a
  core's first step starts from the cleared accumulator, every other step adds to what the step before left).  After
  a core's last step the output block holds the sum over the sublanes of that, and it is written to row c of the
  2 x 1 x 128 result.  The program then sums the result from the zero word and divides by the word of 2^25; by
  `LogLik.sum_regroup` the grouped sum is the sum over the flat index.
-/
import proofs.«136038_j87522843558820_2_alg».proof.Proof.Pieces
import proofs.«136038_j87522843558820_2_alg».proof.Proof.Payload
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx Idealize.ShloMosaic.ValueSums
open Idealize.ShloMosaic.Pipeline (Dat)

namespace Cert.KernelIdeal.MeanValue

open Cert.KernelIdeal Cert.KernelIdeal.Gen Cert.LogLik

variable (m : (ℓ : Loc nD τ sig) → Buf (Elt Ideal) ℓ) (ρ : Dev nD → PrngReg)

/-! ## Where the blocks sit -/

/-- The block indices, decided over the sixteen grid points: input block t is block row t; the output block of
    point t is row t / 8 of the result. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem idx_out : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- The two arrays the kernel streams are the flat arguments viewed as 262144 rows of 128. -/
theorem V_v0 (c : Dev nD) : (V m c main_v0 : S262144x128.Idx → EReal)
    = shapeCast S262144x128 (m ((c : Thread nD τ).loc main_arg0)) shapeCasts_S33554432_S262144x128 := by
  show StableHlo.after hostOps0 (fun b => m (c, b)) (Proc.devRef .tc main_v0) = _
  after_results
  rfl

theorem V_v1 (c : Dev nD) : (V m c main_v1 : S262144x128.Idx → EReal)
    = shapeCast S262144x128 (m ((c : Thread nD τ).loc main_arg1)) shapeCasts_S33554432_S262144x128 := by
  show StableHlo.after hostOps0 (fun b => m (c, b)) (Proc.devRef .tc main_v1) = _
  after_results
  rfl

/-- Entry (r, l) of the row view is flat position 128 r + l. -/
theorem view_apply (a : S33554432.Idx → EReal) (r : Fin 262144) (l : Fin 128) :
    shapeCast S262144x128 a shapeCasts_S33554432_S262144x128 (ix2 r l) = entry a (r.val * 128 + l.val) := by
  have h : r.val * 128 + l.val < 33554432 := by omega
  rw [entry_of_lt a _ h]
  refine shapeCast_apply _ _ _ (ix1 ⟨r.val * 128 + l.val, h⟩) ?_
  rw [Shape.rowMajor_val_one, Shape.rowMajor_val_two]
  rfl

/-- Entry (r, l) of input block t of the first argument. -/
theorem blk0_apply (c : Dev nD) (t : Fin cfg0.N) (r : Fin 16384) (l : Fin 128) :
    (iblk m c 0 t : Vec Ideal S16384x128 .f32) (ix2 r l)
      = entry (m ((c : Thread nD τ).loc main_arg0)) ((t.val * 16384 + r.val) * 128 + l.val) := by
  have hN : cfg0.N = 16 := N_0
  have ht : t.val < 16 := lt_of_lt_of_eq t.isLt hN
  unfold iblk
  rw [View.read_apply]
  show V m c main_v0 _ = _
  rw [V_v0, ← view_apply (m ((c : Thread nD τ).loc main_arg0)) ⟨t.val * 16384 + r.val, by omega⟩ l]
  refine congrArg _ (funext fun a => Fin.ext ?_)
  obtain ⟨e0, e1, -, -⟩ := idx_in t
  match a with
  | ⟨0, _⟩ => show win0_0.index t (0 : Fin 2) * 16384 + 1 * r.val = t.val * 16384 + r.val; rw [e0]; omega
  | ⟨1, _⟩ => show win0_0.index t (1 : Fin 2) * 128 + 1 * l.val = l.val; rw [e1]; omega

/-- Entry (r, l) of input block t of the second argument. -/
theorem blk1_apply (c : Dev nD) (t : Fin cfg0.N) (r : Fin 16384) (l : Fin 128) :
    (iblk m c 1 t : Vec Ideal S16384x128 .f32) (ix2 r l)
      = entry (m ((c : Thread nD τ).loc main_arg1)) ((t.val * 16384 + r.val) * 128 + l.val) := by
  have hN : cfg0.N = 16 := N_0
  have ht : t.val < 16 := lt_of_lt_of_eq t.isLt hN
  unfold iblk
  rw [View.read_apply]
  show V m c main_v1 _ = _
  rw [V_v1, ← view_apply (m ((c : Thread nD τ).loc main_arg1)) ⟨t.val * 16384 + r.val, by omega⟩ l]
  refine congrArg _ (funext fun a => Fin.ext ?_)
  obtain ⟨-, -, e0, e1⟩ := idx_in t
  match a with
  | ⟨0, _⟩ => show win0_1.index t (0 : Fin 2) * 16384 + 1 * r.val = t.val * 16384 + r.val; rw [e0]; omega
  | ⟨1, _⟩ => show win0_1.index t (1 : Fin 2) * 128 + 1 * l.val = l.val; rw [e1]; omega

/-! ## One step's addend, and what the accumulator holds -/

/-- The addend of step `n` at accumulator entry (s, l): the log-densities of sublane s, lane l of its 2048 row groups. -/
def part (a b : S33554432.Idx → EReal) (n s l : ℕ) : EReal :=
  ∑ g : Fin 2048, sample a b ((n * 16384 + (g.val * 8 + s)) * 128 + l)

/-- Updating an accumulator with point t's blocks adds that step's addend. -/
theorem update_blk (c : Dev nD) (t : Fin cfg0.N) (acc : Vec Ideal S8x128 .f32) (s : Fin 8) (l : Fin 128) :
    k0_pay2 (iblk m c 0 t) (iblk m c 1 t) acc (ix2 s l)
      = acc (ix2 s l) + part (m ((c : Thread nD τ).loc main_arg0)) (m ((c : Thread nD τ).loc main_arg1)) t.val s.val l.val := by
  refine (Payload.update_apply (iblk m c 0 t) (iblk m c 1 t) acc s l).trans ?_
  refine congrArg (acc (ix2 s l) + ·) (Finset.sum_congr rfl fun g _ => ?_)
  rw [blk0_apply m c t (Payload.row g s) l, blk1_apply m c t (Payload.row g s) l]
  rfl

/-- A core's first step leaves the update of the cleared accumulator. -/
theorem step_first (c : Dev nD) (t : Fin cfg0.N) (h0 : t.val % 8 = 0) :
    (outsAt0 m c t.val t.isLt).2 = k0_pay2 (iblk m c 0 t) (iblk m c 1 t) (k0_pay1 (F := Ideal)) := by
  have h1 : ¬t.val % 8 = 7 := by omega
  rw [outsAt0_A m c t h0 h1]
  exact Pieces.scratch_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- Every other step leaves the update of what the step before left. -/
theorem step_next (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    exact Pieces.scratch_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    exact Pieces.scratch_B c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- A core's last step leaves, in the output block, the sublane sums of the accumulator it leaves. -/
theorem out_last (c : Dev nD) (t : Fin cfg0.N) (h1 : t.val % 8 = 7) :
    (outsAt0 m c t.val t.isLt).1 = k0_pay3 (F := Ideal) (outsAt0 m c t.val t.isLt).2 := by
  have h0 : ¬t.val % 8 = 0 := by omega
  have hA : (outsAt0 m c t.val t.isLt).1
      = k0_pay3 (F := Ideal) (k0_pay2 (iblk m c 0 t) (iblk m c 1 t)
          (outsAt0 m c (t.val - 1) (Nat.lt_of_le_of_lt (Nat.sub_le _ _) t.isLt)).2) := by
    rw [outsAt0_C m c t h0 h1]
    exact Pieces.out_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  exact hA.trans (congrArg (k0_pay3 (F := Ideal)) (step_next m c t h0).symm)

/-- THE ACCUMULATOR after step n holds, at (s, l), the addends of its core's steps up to n. -/
theorem acc_eq (c : Dev nD) : ∀ (n : ℕ) (hn : n < cfg0.N) (s : Fin 8) (l : Fin 128),
    (outsAt0 m c n hn).2 (ix2 s l)
      = ∑ j ∈ Finset.range (n % 8 + 1),
          part (m ((c : Thread nD τ).loc main_arg0)) (m ((c : Thread nD τ).loc main_arg1)) (8 * (n / 8) + j) s.val l.val
  | 0, hn, s, l => by
    refine (congrFun (step_first m c ⟨0, hn⟩ rfl) (ix2 s l)).trans ?_
    rw [update_blk m c ⟨0, hn⟩ _ s l, Payload.zero_apply, zero_add]
    simp
  | n + 1, hn, s, l => by
    have hN : cfg0.N = 16 := N_0
    by_cases h0 : (n + 1) % 8 = 0
    · refine (congrFun (step_first m c ⟨n + 1, hn⟩ h0) (ix2 s l)).trans ?_
      rw [update_blk m c ⟨n + 1, hn⟩ _ s l, Payload.zero_apply, zero_add, h0, Finset.sum_range_one]
      refine congrArg (fun k => part _ _ k s.val l.val) ?_
      show n + 1 = 8 * ((n + 1) / 8) + 0
      omega
    · refine (congrFun (step_next m c ⟨n + 1, hn⟩ h0) (ix2 s l)).trans ?_
      rw [update_blk m c ⟨n + 1, hn⟩ _ s l]
      show (outsAt0 m c n _).2 (ix2 s l) + _ = _
      rw [acc_eq c n (Nat.lt_of_succ_lt hn) s l]
      have e1 : (n + 1) % 8 = n % 8 + 1 := by omega
      have e2 : (n + 1) / 8 = n / 8 := by omega
      rw [e1, e2, Finset.sum_range_succ _ (n % 8 + 1)]
      refine congrArg (_ + ·) (congrArg (fun k => part _ _ k s.val l.val) ?_)
      show n + 1 = 8 * (n / 8) + (n % 8 + 1)
      omega

/-- THE OUTPUT BLOCK after a core's last step: at lane l, the addends of the core's eight steps over all sublanes. -/
theorem out_eq (c : Dev nD) (t : Fin cfg0.N) (h1 : t.val % 8 = 7) (y : S1x1x128.Idx) :
    (outsAt0 m c t.val t.isLt).1 y
      = ∑ s : Fin 8, ∑ j ∈ Finset.range 8,
          part (m ((c : Thread nD τ).loc main_arg0)) (m ((c : Thread nD τ).loc main_arg1)) (8 * (t.val / 8) + j) s.val (y 2).val := by
  obtain ⟨q, r, l, rfl⟩ : ∃ (q : Fin 1) (r : Fin 1) (l : Fin 128), y = ix3 q r l := ⟨y 0, y 1, y 2, eq_ix3 y⟩
  obtain rfl : q = 0 := Subsingleton.elim _ _
  obtain rfl : r = 0 := Subsingleton.elim _ _
  rw [out_last m c t h1]
  refine (Payload.fold_apply _ l).trans (Finset.sum_congr rfl fun s _ => ?_)
  rw [acc_eq m c t.val t.isLt s l, h1]

/-! ## The result array -/

/-- Row c, lane l of the 2 x 1 x 128 result: the addends of core c's eight steps over all sublanes, at lane l. -/
def result (a b : S33554432.Idx → EReal) : S2x1x128.Idx → EReal := fun i =>
  ∑ s : Fin 8, ∑ j ∈ Finset.range 8, part a b (8 * (i 0).val + j) s.val (i 2).val

/-- What a core's last step writes back is its block of `result`. -/
theorem flushed_eq (c : Dev nD) (t : Fin cfg0.N) (hf : (cfg0.win 2).flush t = true) :
    (dats m 0 c).flushed 2 t
      = ((cfg0.win 2).blk t).view.read (Elt Ideal)
          (result (m ((c : Thread nD τ).loc main_arg0)) (m ((c : Thread nD τ).loc main_arg1))) := by
  have h7 : t.val % 8 = 7 := (flush0_2 t).mp hf
  show (cfg0.win 2).cut (grid0.coords t) ((dats m 0 c).after 2 t) = _
  rw [after0_2]
  funext y
  rw [View.read_apply]
  refine (out_eq m c t h7 y).trans ?_
  obtain ⟨e0, -, e2⟩ := idx_out t
  have k0 : ((((cfg0.win 2).blk t).view.emb y) (0 : Fin 3)).val = t.val / 8 := by
    show win0_2.index t (0 : Fin 3) * 1 + 1 * (y 0).val = _
    have hy : (y 0).val < 1 := (y 0).isLt
    rw [e0]; omega
  have k2 : ((((cfg0.win 2).blk t).view.emb y) (2 : Fin 3)).val = (y 2).val := by
    show win0_2.index t (2 : Fin 3) * 128 + 1 * (y 2).val = _
    rw [e2]; omega
  unfold result
  rw [k0, k2]
  exact (cast_eq _ _).symm

/-- An index of the result is in point t's block iff each coordinate is in the block's range. -/
theorem mem_blk (t : Fin cfg0.N) (i : S2x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v2).slice (win0_2.rect t)).set ↔ _
  rw [View.set_slice_whole, Rect.mem_set_unit]
  exact Iff.rfl

/-- Row c of the result is written by core c's last step, point 8 c + 7. -/
theorem cover (i : S2x1x128.Idx) :
    ∃ t : Fin cfg0.N, (cfg0.win 2).flush t = true ∧ i ∈ ((cfg0.win 2).blk t).view.set := by
  have hN : cfg0.N = 16 := N_0
  have h0 : (i 0).val < 2 := (i 0).isLt
  have h1 : (i 1).val < 1 := (i 1).isLt
  have h2 : (i 2).val < 128 := (i 2).isLt
  have hb : 8 * (i 0).val + 7 < cfg0.N := by omega
  refine ⟨⟨8 * (i 0).val + 7, hb⟩, (flush0_2 _).mpr (by show (8 * (i 0).val + 7) % 8 = 7; omega), ?_⟩
  rw [mem_blk]
  obtain ⟨e0, e1, e2⟩ := idx_out ⟨8 * (i 0).val + 7, hb⟩
  have e0' : win0_2.index ⟨8 * (i 0).val + 7, hb⟩ (0 : Fin 3) = (i 0).val := by rw [e0]; show (8 * (i 0).val + 7) / 8 = _; omega
  intro a
  match a with
  | ⟨0, _⟩ =>
    show win0_2.index ⟨8 * (i 0).val + 7, hb⟩ (0 : Fin 3) * 1 ≤ (i 0).val
      ∧ (i 0).val < win0_2.index ⟨8 * (i 0).val + 7, hb⟩ (0 : Fin 3) * 1 + 1
    rw [e0']; omega
  | ⟨1, _⟩ =>
    show win0_2.index ⟨8 * (i 0).val + 7, hb⟩ (1 : Fin 3) * 1 ≤ (i 1).val
      ∧ (i 1).val < win0_2.index ⟨8 * (i 0).val + 7, hb⟩ (1 : Fin 3) * 1 + 1
    rw [e1]; omega
  | ⟨2, _⟩ =>
    show win0_2.index ⟨8 * (i 0).val + 7, hb⟩ (2 : Fin 3) * 128 ≤ (i 2).val
      ∧ (i 2).val < win0_2.index ⟨8 * (i 0).val + 7, hb⟩ (2 : Fin 3) * 128 + 128
    rw [e2]; omega

/-- So the result array ends holding `result` of the two arguments. -/
theorem final (c : Dev nD) : (dats m 0 c).arrAt 2 cfg0.N
    = result (m ((c : Thread nD τ).loc main_arg0)) (m ((c : Thread nD τ).loc main_arg1)) :=
  (dats m 0 c).arrAt_eq_of_cover 2 _ (flushed_eq m c) cover

/-! ## The sum of the result is the sum over the flat index -/

/-- Summing `result` over its (core, lane) entries adds every log-density exactly once. -/
theorem sum_result (a b : S33554432.Idx → EReal) :
    ∑ i : S2x1x128.Idx, result a b i = ∑ i : Fin 33554432, sample a b i.val := by
  rw [sum_idx3, sum_regroup (sample a b)]
  refine Finset.sum_congr rfl fun c _ => ?_
  rw [Fin.sum_univ_one]
  refine Finset.sum_congr rfl fun l _ => ?_
  show ∑ s : Fin 8, ∑ j ∈ Finset.range 8, part a b (8 * c.val + j) s.val l.val = _
  refine Finset.sum_congr rfl fun s _ => ?_
  rw [Finset.sum_range]
  refine Finset.sum_congr rfl fun j _ => ?_
  unfold part
  refine Finset.sum_congr rfl fun g _ => congrArg (sample a b) ?_
  unfold pos
  omega

/-! ## After the region: the sum and the division -/

/-- The program's result buffer after the lines that follow the region: the mean. -/
theorem tail_eq (c : Dev nD) :
    Pipeline.afterTail₀ cfgs (dats m) 0 (V0 m) [hostOps1] c main_v4
      = mean (m ((c : Thread nD τ).loc main_arg0)) (m ((c : Thread nD τ).loc main_arg1)) := by
  unfold Pipeline.afterTail₀
  show StableHlo.after hostOps1 _ (Proc.devRef .tc main_v4) = _
  after_results
  rw [(Pipeline.withArrays_arr spec0 launch0.win.arr_inj c _ _ 2).trans (final m c)]
  funext i
  show FloatOps.hostDivf (F := Ideal)
      (Host.reduceAdd (F := Ideal) (result (m ((c : Thread nD τ).loc main_arg0)) (m ((c : Thread nD τ).loc main_arg1)))
        (constant (F := Ideal) S_ .f32 0x00000000#32) reducesTo_S2x1x128_S_d0_1_2 h_S_ i)
      (constant (F := Ideal) S_ .f32 0x4C000000#32 i) = _
  simp only [Host.reduceAdd, Ideal.hostReduceAdd_def, Ideal.hostDivf_def]
  rw [Ideal.hostReduceAdd_total reducesTo_S2x1x128_S_d0_1_2 (fun b => b.elim0), sum_result]
  rfl

/-! ## The run -/

/-- Every weakly fair execution of the idealized kernel's program terminates with its result buffer at the mean of
    the log-densities of its two arguments, and the arguments unchanged. -/
theorem run : θ_run defs (onTc (τ := τ) (main (F := Ideal))) ⟨m, fun _ => 0, ρ⟩ fun r => ∀ c : Dev nD,
      r.2.mem ((c.tc : Thread nD τ).loc main_v4)
        = mean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.MeanValue

end
-- ==== Proof.lean ====
/-
  Mean log-likelihood of 2^25 Monte-Carlo samples: a Pallas kernel against its jnp reference, on the extended reals.

  Both programs form, for each sample pair (a i, b i), the log-density
      (-1/2) * (0.4 - ((a i + b i) + 3))^2 - (1/2) log (2 pi)
  with the same float words, add the 2^25 values from the zero word and divide by the word of 2^25
  (`LogLik.mean`, Proof/Spec.lean).  The reference adds them in one sum over the flat index (Proof/RefValue.lean,
  over its generated run).  The kernel splits the samples between two cores; each core streams its half in eight
  blocks of 16384 x 128, adds each block's 2048 row groups into an 8 x 128 accumulator, and after its last block sums
  the accumulator's sublanes into a row of 128 lanes; the program then sums the 2 x 128 lanes (Proof/Pieces.lean,
  Proof/Payload.lean, Proof/KernelValue.lean, over the generated frame).  The two groupings of one finite sum in the
  commutative monoid of the extended reals agree (`LogLik.sum_regroup`); the inputs' finiteness is not used.

  The three frames are the generated ones (the reference's is its run with the result dropped); the kernel's
  idealization rewrote nothing, so `preserves` is trivial.
-/
import proofs.«136038_j87522843558820_2_alg».proof.Defs
import proofs.«136038_j87522843558820_2_alg».proof.Proof.Gen.Kernel
import proofs.«136038_j87522843558820_2_alg».proof.Proof.Gen.Kernel.Skeleton
import proofs.«136038_j87522843558820_2_alg».proof.Proof.Gen.Kernel.Launch
import proofs.«136038_j87522843558820_2_alg».proof.Proof.Gen.Kernel.Points
import proofs.«136038_j87522843558820_2_alg».proof.Proof.Gen.Kernel.Frame
import proofs.«136038_j87522843558820_2_alg».proof.Proof.Gen.KernelIdeal
import proofs.«136038_j87522843558820_2_alg».proof.Proof.Gen.KernelIdeal.Skeleton
import proofs.«136038_j87522843558820_2_alg».proof.Proof.Gen.KernelIdeal.Launch
import proofs.«136038_j87522843558820_2_alg».proof.Proof.Gen.KernelIdeal.Points
import proofs.«136038_j87522843558820_2_alg».proof.Proof.Gen.KernelIdeal.Frame
import proofs.«136038_j87522843558820_2_alg».proof.Proof.Gen.ReferenceIdeal
import proofs.«136038_j87522843558820_2_alg».proof.Proof.Gen.ReferenceIdeal.Run
import proofs.«136038_j87522843558820_2_alg».proof.Proof.Gen.ReferenceIdeal.Read
import proofs.«136038_j87522843558820_2_alg».proof.Proof.Gen.Pre_finite_inputs
import proofs.«136038_j87522843558820_2_alg».proof.Proof.RefValue
import proofs.«136038_j87522843558820_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, both idealized programs end with their result at the mean of the
    log-densities of those arguments. -/
theorem algebraic : Cert.algebraic_KernelIdeal_ReferenceIdeal := by
  intro m ρ m' ρ' _ hagree
  refine ⟨fun c => Cert.LogLik.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MeanValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
